-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x65 : Shape := ⟨3, ![32, 2048, 65]⟩
abbrev S64x65 : Shape := ⟨2, ![64, 65]⟩
abbrev S65x65 : Shape := ⟨2, ![65, 65]⟩
abbrev S_ : Shape := ⟨0, ![]⟩

class Facts : Prop where
  bcast_S_S32x2048x65 : S_.BroadcastsInDim S32x2048x65 (![] : Fin 0 → Fin S32x2048x65.rank)
  reducesTo_S32x2048x65_S_d0_1_2 : S32x2048x65.ReducesTo [0, 1, 2] S_
  h_S_ : 0 < S_.numel
  bcast_S_S64x65 : S_.BroadcastsInDim S64x65 (![] : Fin 0 → Fin S64x65.rank)
  reducesTo_S64x65_S_d0_1 : S64x65.ReducesTo [0, 1] S_
  bcast_S_S65x65 : S_.BroadcastsInDim S65x65 (![] : Fin 0 → Fin S65x65.rank)
  reducesTo_S65x65_S_d0_1 : S65x65.ReducesTo [0, 1] S_

variable [Facts]

def fn_part1 {F : FTy → Type} [FloatOps F] (main_v13 : IVec S_ 1) (main_v16 : IVec S65x65 1) : IVec S_ 1 :=
  let main_c_5 : IVec S_ 1 := constantI S_ 1 1#1
  let main_v17 : IVec S_ 1 := (fun x v => Host.reduce IntOp.andi x v reducesTo_S65x65_S_d0_1 h_S_) main_v16 main_c_5
  let main_v18 : IVec S_ 1 := andi main_v13 main_v17
  main_v18

def fn {F : FTy → Type} [FloatOps F] (main_arg0 : FVec F S32x2048x65 .f32) (main_arg1 : FVec F S64x65 .f32) (main_arg2 : FVec F S64x65 .f32) (main_arg3 : FVec F S65x65 .f32) : IVec S_ 1 :=
  let main_v0 : FVec F S32x2048x65 .f32 := Host.absf main_arg0
  let main_cst : FVec F S_ .f32 := constant S_ .f32 0x7F800000#32
  let main_v1 : FVec F S32x2048x65 .f32 := broadcastInDim S32x2048x65 ![] bcast_S_S32x2048x65 main_cst
  let main_v2 : IVec S32x2048x65 1 := cmpf .olt main_v0 main_v1
  let main_c : IVec S_ 1 := constantI S_ 1 1#1
  let main_v3 : IVec S_ 1 := (fun x v => Host.reduce IntOp.andi x v reducesTo_S32x2048x65_S_d0_1_2 h_S_) main_v2 main_c
  let main_v4 : FVec F S64x65 .f32 := Host.absf main_arg1
  let main_cst_0 : FVec F S_ .f32 := constant S_ .f32 0x7F800000#32
  let main_v5 : FVec F S64x65 .f32 := broadcastInDim S64x65 ![] bcast_S_S64x65 main_cst_0
  let main_v6 : IVec S64x65 1 := cmpf .olt main_v4 main_v5
  let main_c_1 : IVec S_ 1 := constantI S_ 1 1#1
  let main_v7 : IVec S_ 1 := (fun x v => Host.reduce IntOp.andi x v reducesTo_S64x65_S_d0_1 h_S_) main_v6 main_c_1
  let main_v8 : IVec S_ 1 := andi main_v3 main_v7
  let main_v9 : FVec F S64x65 .f32 := Host.absf main_arg2
  let main_cst_2 : FVec F S_ .f32 := constant S_ .f32 0x7F800000#32
  let main_v10 : FVec F S64x65 .f32 := broadcastInDim S64x65 ![] bcast_S_S64x65 main_cst_2
  let main_v11 : IVec S64x65 1 := cmpf .olt main_v9 main_v10
  let main_c_3 : IVec S_ 1 := constantI S_ 1 1#1
  let main_v12 : IVec S_ 1 := (fun x v => Host.reduce IntOp.andi x v reducesTo_S64x65_S_d0_1 h_S_) main_v11 main_c_3
  let main_v13 : IVec S_ 1 := andi main_v8 main_v12
  let main_v14 : FVec F S65x65 .f32 := Host.absf main_arg3
  let main_cst_4 : FVec F S_ .f32 := constant S_ .f32 0x7F800000#32
  let main_v15 : FVec F S65x65 .f32 := broadcastInDim S65x65 ![] bcast_S_S65x65 main_cst_4
  let main_v16 : IVec S65x65 1 := cmpf .olt main_v14 main_v15
  fn_part1 (F := F) main_v13 main_v16
-- ==== Kernel.lean ====
abbrev S32x2048x65 : Shape := ⟨3, ![32, 2048, 65]⟩
abbrev S64x65 : Shape := ⟨2, ![64, 65]⟩
abbrev S65x65 : Shape := ⟨2, ![65, 65]⟩
abbrev S4x2048x65 : Shape := ⟨3, ![4, 2048, 65]⟩
abbrev S1x2048x65 : Shape := ⟨3, ![1, 2048, 65]⟩
abbrev S2048x65 : Shape := ⟨2, ![2048, 65]⟩

abbrev nBuf : Space → Nat
  | .hbm => 6
  | .vmem => 6
  | .smem => 0
  | _ => 0

abbrev bufTy : (tb : Table) → Fin (tcTables nBuf tb) → BufTy
  | .hbm, ⟨0, _⟩ => ⟨S32x2048x65, .f32⟩
  | .hbm, ⟨1, _⟩ => ⟨S64x65, .f32⟩
  | .hbm, ⟨2, _⟩ => ⟨S64x65, .f32⟩
  | .hbm, ⟨3, _⟩ => ⟨S65x65, .f32⟩
  | .hbm, ⟨4, _⟩ => ⟨S65x65, .f32⟩
  | .hbm, ⟨5, _⟩ => ⟨S32x2048x65, .f32⟩
  | .local _ .vmem, ⟨0, _⟩ => ⟨S4x2048x65, .f32⟩
  | .local _ .vmem, ⟨1, _⟩ => ⟨S4x2048x65, .f32⟩
  | .local _ .vmem, ⟨2, _⟩ => ⟨S65x65, .f32⟩
  | .local _ .vmem, ⟨3, _⟩ => ⟨S65x65, .f32⟩
  | .local _ .vmem, ⟨4, _⟩ => ⟨S4x2048x65, .f32⟩
  | .local _ .vmem, ⟨5, _⟩ => ⟨S4x2048x65, .f32⟩
  | _, _ => ⟨S32x2048x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S65x65 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S65x65 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x2048x65 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S65x65_S65x65_0_0 : ∀ a, (![0, 0] : Fin 2 → Nat) a + S65x65.size a ≤ S65x65.size a
  h_S65x65 : 0 < S65x65.numel
  shapeCasts_S65x65_S65x65 : S65x65.ShapeCasts S65x65
  bitsLt_bf16_f32 : FTy.bits .bf16 < FTy.bits .f32
  inb_S4x2048x65_S1x2048x65_0_0_0 : ∀ a, (![0, 0, 0] : Fin 3 → Nat) a + S1x2048x65.size a ≤ S4x2048x65.size a
  h_S1x2048x65 : 0 < S1x2048x65.numel
  shapeCasts_S1x2048x65_S2048x65 : S1x2048x65.ShapeCasts S2048x65
  shapeCasts_S2048x65_S1x2048x65 : S2048x65.ShapeCasts S1x2048x65
  inb_S4x2048x65_S1x2048x65_1_0_0 : ∀ a, (![1, 0, 0] : Fin 3 → Nat) a + S1x2048x65.size a ≤ S4x2048x65.size a
  inb_S4x2048x65_S1x2048x65_2_0_0 : ∀ a, (![2, 0, 0] : Fin 3 → Nat) a + S1x2048x65.size a ≤ S4x2048x65.size a
  inb_S4x2048x65_S1x2048x65_3_0_0 : ∀ a, (![3, 0, 0] : Fin 3 → Nat) a + S1x2048x65.size a ≤ S4x2048x65.size a
  dot_S64x65_S64x65_S65x65_0_0_1_1_n_n_wf : DotDims.WF S64x65 S64x65 S65x65 [0] [0] [1] [1] [] []
  dot_S2048x65_S2048x65_S65x65_0_0_1_1_n_n_wf : DotDims.WF S2048x65 S2048x65 S65x65 [0] [0] [1] [1] [] []
  dot_S65x65_S65x65_S65x65_1_0_0_1_n_n_wf : DotDims.WF S65x65 S65x65 S65x65 [1] [0] [0] [1] [] []
  dot_S65x65_S65x65_S65x65_1_1_0_0_n_n_wf : DotDims.WF S65x65 S65x65 S65x65 [1] [1] [0] [0] [] []
  dot_S2048x65_S65x65_S2048x65_1_0_0_1_n_n_wf : DotDims.WF S2048x65 S65x65 S2048x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048x65.size a ≤ S32x2048x65.size a
  hwx0_0 : ∀ i : grid0.Coords, EltTy.bits .f32 = 32 ∨ (Rect.block (s := S32x2048x65) S4x2048x65.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S65x65.size a ≤ S65x65.size a
  hwx0_1 : ∀ i : grid0.Coords, EltTy.bits .f32 = 32 ∨ (Rect.block (s := S65x65) S65x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x65.size a ≤ S65x65.size a
  hwx0_2 : ∀ i : grid0.Coords, EltTy.bits .f32 = 32 ∨ (Rect.block (s := S65x65) S65x65.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x2048x65.size a ≤ S32x2048x65.size a
  hwx0_3 : ∀ i : grid0.Coords, EltTy.bits .f32 = 32 ∨ (Rect.block (s := S32x2048x65) S4x2048x65.size (cc0_transform_3 i) (hinb0_3 i)).WholeWords (EltTy.packing .f32)

variable [Facts₀]

def dot_S64x65_S64x65_S65x65_0_0_1_1_n_n : DotDims S64x65 S64x65 S65x65 where
  lhsContracting := [0]
  rhsContracting := [0]
  lhsNonContracting := [1]
  rhsNonContracting := [1]
  lhsBatch := []
  rhsBatch := []
  wf := dot_S64x65_S64x65_S65x65_0_0_1_1_n_n_wf
def dot_S2048x65_S2048x65_S65x65_0_0_1_1_n_n : DotDims S2048x65 S2048x65 S65x65 where
  lhsContracting := [0]
  rhsContracting := [0]
  lhsNonContracting := [1]
  rhsNonContracting := [1]
  lhsBatch := []
  rhsBatch := []
  wf := dot_S2048x65_S2048x65_S65x65_0_0_1_1_n_n_wf
def dot_S65x65_S65x65_S65x65_1_0_0_1_n_n : DotDims S65x65 S65x65 S65x65 where
  lhsContracting := [1]
  rhsContracting := [0]
  lhsNonContracting := [0]
  rhsNonContracting := [1]
  lhsBatch := []
  rhsBatch := []
  wf := dot_S65x65_S65x65_S65x65_1_0_0_1_n_n_wf
def dot_S65x65_S65x65_S65x65_1_1_0_0_n_n : DotDims S65x65 S65x65 S65x65 where
  lhsContracting := [1]
  rhsContracting := [1]
  lhsNonContracting := [0]
  rhsNonContracting := [0]
  lhsBatch := []
  rhsBatch := []
  wf := dot_S65x65_S65x65_S65x65_1_1_0_0_n_n_wf
def dot_S2048x65_S65x65_S2048x65_1_0_0_1_n_n : DotDims S2048x65 S65x65 S2048x65 where
  lhsContracting := [1]
  rhsContracting := [0]
  lhsNonContracting := [0]
  rhsNonContracting := [1]
  lhsBatch := []
  rhsBatch := []
  wf := dot_S2048x65_S65x65_S2048x65_1_0_0_1_n_n_wf

abbrev win0_0 : Pipeline.Window sig grid0 :=
  Pipeline.Window.ofSpec (Memref.whole main_arg0) S4x2048x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S65x65.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S65x65.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x2048x65.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x65 : Shape := ⟨3, ![32, 2048, 65]⟩
abbrev S64x65 : Shape := ⟨2, ![64, 65]⟩
abbrev S65x65 : Shape := ⟨2, ![65, 65]⟩
abbrev S32x2048x64 : Shape := ⟨3, ![32, 2048, 64]⟩
abbrev S32x2048x2048 : Shape := ⟨3, ![32, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32x2048x65, .f32⟩
  | .hbm, ⟨1, _⟩ => ⟨S64x65, .f32⟩
  | .hbm, ⟨2, _⟩ => ⟨S64x65, .f32⟩
  | .hbm, ⟨3, _⟩ => ⟨S65x65, .f32⟩
  | .hbm, ⟨4, _⟩ => ⟨S32x2048x64, .f32⟩
  | .hbm, ⟨5, _⟩ => ⟨S32x2048x64, .f32⟩
  | .hbm, ⟨6, _⟩ => ⟨S32x2048x65, .f32⟩
  | .hbm, ⟨7, _⟩ => ⟨S32x2048x2048, .f32⟩
  | .hbm, ⟨8, _⟩ => ⟨S32x2048x65, .f32⟩
  | _, _ => ⟨S32x2048x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  dot_S32x2048x65_S64x65_S32x2048x64_2_1_01_0_n_n_wf : DotDims.WF S32x2048x65 S64x65 S32x2048x64 [2] [1] [0, 1] [0] [] []
  dot_S32x2048x65_S65x65_S32x2048x65_2_1_01_0_n_n_wf : DotDims.WF S32x2048x65 S65x65 S32x2048x65 [2] [1] [0, 1] [0] [] []
  dot_S32x2048x64_S32x2048x64_S32x2048x2048_2_2_1_1_0_0_wf : DotDims.WF S32x2048x64 S32x2048x64 S32x2048x2048 [2] [2] [1] [1] [0] [0]
  dot_S32x2048x2048_S32x2048x65_S32x2048x65_2_1_1_2_0_0_wf : DotDims.WF S32x2048x2048 S32x2048x65 S32x2048x65 [2] [1] [1] [2] [0] [0]

variable [Facts₀]

def dot_S32x2048x65_S64x65_S32x2048x64_2_1_01_0_n_n : DotDims S32x2048x65 S64x65 S32x2048x64 where
  lhsContracting := [2]
  rhsContracting := [1]
  lhsNonContracting := [0, 1]
  rhsNonContracting := [0]
  lhsBatch := []
  rhsBatch := []
  wf := dot_S32x2048x65_S64x65_S32x2048x64_2_1_01_0_n_n_wf
def dot_S32x2048x65_S65x65_S32x2048x65_2_1_01_0_n_n : DotDims S32x2048x65 S65x65 S32x2048x65 where
  lhsContracting := [2]
  rhsContracting := [1]
  lhsNonContracting := [0, 1]
  rhsNonContracting := [0]
  lhsBatch := []
  rhsBatch := []
  wf := dot_S32x2048x65_S65x65_S32x2048x65_2_1_01_0_n_n_wf
def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x65_S32x2048x65_2_1_1_2_0_0 : DotDims S32x2048x2048 S32x2048x65 S32x2048x65 where
  lhsContracting := [2]
  rhsContracting := [1]
  lhsNonContracting := [1]
  rhsNonContracting := [2]
  lhsBatch := [0]
  rhsBatch := [0]
  wf := dot_S32x2048x2048_S32x2048x65_S32x2048x65_2_1_1_2_0_0_wf

class Facts : Prop extends Facts₀ where

variable [Facts]
-- ==== Proof.ProductsRead.lean ====
/-
  The kernel's matrix products read at an index, at the ideal instance, as plain sums over the contracted axis.

  The body forms, per sequence, four products into zero accumulators, and the host forms one before the kernel starts:
    * the Gram matrix of a sequence, contracting the two operands' ROW axes: (xᵀ x)(j, k) = Σ_m x(m, j) · x(m, k);
    * an ordinary product of two 65×65 matrices: (a g)(d, e) = Σ_k a(d, k) · g(k, e);
    * a product with the right operand contracted on its LAST axis: (p wᵀ)(d, e) = Σ_k p(d, k) · w(e, k);
    * an ordinary product of a 2048×65 by a 65×65 matrix: (x M)(n, e) = Σ_d x(n, d) · M(d, e);
    * on the host, the product of the two 64×65 weight matrices contracting their ROW axes:
      (wqᵀ wk)(d, j) = Σ_h wq(h, d) · wk(h, j).
  Each is the library's reading of a product as a sum over the contraction index, re-indexed along the one contracted
  axis, with the operand indices written by coordinates: a kept axis of an operand reads the output coordinate it
  produces (the left operand's the first, the right operand's the second), the contracted axis reads the summation index.
-/
import proofs.«102743_j16226386444902_2_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

variable {φ₁ φ₂ : FTy}

/-! ### The Gram product: both operands contracted on their row axis (of extent 2048). -/

theorem gram_lhs_kept (i : S65x65.Idx) (q : dot_S2048x65_S2048x65_S65x65_0_0_1_1_n_n.contr.Idx) :
    (dot_S2048x65_S2048x65_S65x65_0_0_1_1_n_n.lhsIdx i q 1).val = (i 0).val := by
  unfold DotDims.lhsIdx
  rw [dif_neg (show ¬(1 : Fin S2048x65.rank) ∈ dot_S2048x65_S2048x65_S65x65_0_0_1_1_n_n.lhsBatch by decide), dif_pos (show (1 : Fin S2048x65.rank) ∈ dot_S2048x65_S2048x65_S65x65_0_0_1_1_n_n.lhsNonContracting by decide)]
  rfl
theorem gram_lhs_contracted (i : S65x65.Idx) (q : dot_S2048x65_S2048x65_S65x65_0_0_1_1_n_n.contr.Idx) :
    (dot_S2048x65_S2048x65_S65x65_0_0_1_1_n_n.lhsIdx i q 0).val = (q ⟨0, by decide⟩).val :=
  dot_S2048x65_S2048x65_S65x65_0_0_1_1_n_n.lhsIdx_val_of_single rfl i q
theorem gram_rhs_kept (i : S65x65.Idx) (q : dot_S2048x65_S2048x65_S65x65_0_0_1_1_n_n.contr.Idx) :
    (dot_S2048x65_S2048x65_S65x65_0_0_1_1_n_n.rhsIdx i q 1).val = (i 1).val := by
  unfold DotDims.rhsIdx
  rw [dif_neg (show ¬(1 : Fin S2048x65.rank) ∈ dot_S2048x65_S2048x65_S65x65_0_0_1_1_n_n.rhsBatch by decide), dif_pos (show (1 : Fin S2048x65.rank) ∈ dot_S2048x65_S2048x65_S65x65_0_0_1_1_n_n.rhsNonContracting by decide)]
  rfl
theorem gram_rhs_contracted (i : S65x65.Idx) (q : dot_S2048x65_S2048x65_S65x65_0_0_1_1_n_n.contr.Idx) :
    (dot_S2048x65_S2048x65_S65x65_0_0_1_1_n_n.rhsIdx i q 0).val = (q ⟨0, by decide⟩).val :=
  dot_S2048x65_S2048x65_S65x65_0_0_1_1_n_n.rhsIdx_val_of_single rfl i q

/-- The Gram product: both operands contracted on their row axis (of extent 2048). -/
theorem gram_apply (l : FVec Ideal S2048x65 φ₁) (r : FVec Ideal S2048x65 φ₂) (j k : Fin 65) :
    matmul (F := Ideal) dot_S2048x65_S2048x65_S65x65_0_0_1_1_n_n none l r (constant S65x65 .f32 0x00000000#32) (ix2 j k)
      = ∑ m : Fin 2048, l (ix2 m j) * r (ix2 m k) := by
  simp only [matmul]
  rw [Ideal.matmul_constant_zero_apply, ← Equiv.sum_comp (contrEquiv1 dot_S2048x65_S2048x65_S65x65_0_0_1_1_n_n 2048 rfl rfl).symm]
  refine Finset.sum_congr rfl fun m _ => ?_
  have hq := contrEquiv1_symm_val dot_S2048x65_S2048x65_S65x65_0_0_1_1_n_n 2048 rfl rfl m
  have el : dot_S2048x65_S2048x65_S65x65_0_0_1_1_n_n.lhsIdx (ix2 j k) ((contrEquiv1 dot_S2048x65_S2048x65_S65x65_0_0_1_1_n_n 2048 rfl rfl).symm m) = ix2 m j := funext fun a => Fin.ext (by
    match a with
    | ⟨1, _⟩ => exact gram_lhs_kept _ _
    | ⟨0, _⟩ => exact (gram_lhs_contracted _ _).trans hq)
  have er : dot_S2048x65_S2048x65_S65x65_0_0_1_1_n_n.rhsIdx (ix2 j k) ((contrEquiv1 dot_S2048x65_S2048x65_S65x65_0_0_1_1_n_n 2048 rfl rfl).symm m) = ix2 m k := funext fun a => Fin.ext (by
    match a with
    | ⟨1, _⟩ => exact gram_rhs_kept _ _
    | ⟨0, _⟩ => exact (gram_rhs_contracted _ _).trans hq)
  rw [el, er]

/-! ### The ordinary product of two 65×65 matrices. -/

theorem square_lhs_kept (i : S65x65.Idx) (q : dot_S65x65_S65x65_S65x65_1_0_0_1_n_n.contr.Idx) :
    (dot_S65x65_S65x65_S65x65_1_0_0_1_n_n.lhsIdx i q 0).val = (i 0).val := by
  unfold DotDims.lhsIdx
  rw [dif_neg (show ¬(0 : Fin S65x65.rank) ∈ dot_S65x65_S65x65_S65x65_1_0_0_1_n_n.lhsBatch by decide), dif_pos (show (0 : Fin S65x65.rank) ∈ dot_S65x65_S65x65_S65x65_1_0_0_1_n_n.lhsNonContracting by decide)]
  rfl
theorem square_lhs_contracted (i : S65x65.Idx) (q : dot_S65x65_S65x65_S65x65_1_0_0_1_n_n.contr.Idx) :
    (dot_S65x65_S65x65_S65x65_1_0_0_1_n_n.lhsIdx i q 1).val = (q ⟨0, by decide⟩).val :=
  dot_S65x65_S65x65_S65x65_1_0_0_1_n_n.lhsIdx_val_of_single rfl i q
theorem square_rhs_kept (i : S65x65.Idx) (q : dot_S65x65_S65x65_S65x65_1_0_0_1_n_n.contr.Idx) :
    (dot_S65x65_S65x65_S65x65_1_0_0_1_n_n.rhsIdx i q 1).val = (i 1).val := by
  unfold DotDims.rhsIdx
  rw [dif_neg (show ¬(1 : Fin S65x65.rank) ∈ dot_S65x65_S65x65_S65x65_1_0_0_1_n_n.rhsBatch by decide), dif_pos (show (1 : Fin S65x65.rank) ∈ dot_S65x65_S65x65_S65x65_1_0_0_1_n_n.rhsNonContracting by decide)]
  rfl
theorem square_rhs_contracted (i : S65x65.Idx) (q : dot_S65x65_S65x65_S65x65_1_0_0_1_n_n.contr.Idx) :
    (dot_S65x65_S65x65_S65x65_1_0_0_1_n_n.rhsIdx i q 0).val = (q ⟨0, by decide⟩).val :=
  dot_S65x65_S65x65_S65x65_1_0_0_1_n_n.rhsIdx_val_of_single rfl i q

/-- The ordinary product of two 65×65 matrices. -/
theorem square_apply (l : FVec Ideal S65x65 φ₁) (r : FVec Ideal S65x65 φ₂) (d e : Fin 65) :
    matmul (F := Ideal) dot_S65x65_S65x65_S65x65_1_0_0_1_n_n none l r (constant S65x65 .f32 0x00000000#32) (ix2 d e)
      = ∑ k : Fin 65, l (ix2 d k) * r (ix2 k e) := by
  simp only [matmul]
  rw [Ideal.matmul_constant_zero_apply, ← Equiv.sum_comp (contrEquiv1 dot_S65x65_S65x65_S65x65_1_0_0_1_n_n 65 rfl rfl).symm]
  refine Finset.sum_congr rfl fun k _ => ?_
  have hq := contrEquiv1_symm_val dot_S65x65_S65x65_S65x65_1_0_0_1_n_n 65 rfl rfl k
  have el : dot_S65x65_S65x65_S65x65_1_0_0_1_n_n.lhsIdx (ix2 d e) ((contrEquiv1 dot_S65x65_S65x65_S65x65_1_0_0_1_n_n 65 rfl rfl).symm k) = ix2 d k := funext fun a => Fin.ext (by
    match a with
    | ⟨0, _⟩ => exact square_lhs_kept _ _
    | ⟨1, _⟩ => exact (square_lhs_contracted _ _).trans hq)
  have er : dot_S65x65_S65x65_S65x65_1_0_0_1_n_n.rhsIdx (ix2 d e) ((contrEquiv1 dot_S65x65_S65x65_S65x65_1_0_0_1_n_n 65 rfl rfl).symm k) = ix2 k e := funext fun a => Fin.ext (by
    match a with
    | ⟨1, _⟩ => exact square_rhs_kept _ _
    | ⟨0, _⟩ => exact (square_rhs_contracted _ _).trans hq)
  rw [el, er]

/-! ### The product with the right operand contracted on its last axis (a product with the transpose). -/

theorem transposed_lhs_kept (i : S65x65.Idx) (q : dot_S65x65_S65x65_S65x65_1_1_0_0_n_n.contr.Idx) :
    (dot_S65x65_S65x65_S65x65_1_1_0_0_n_n.lhsIdx i q 0).val = (i 0).val := by
  unfold DotDims.lhsIdx
  rw [dif_neg (show ¬(0 : Fin S65x65.rank) ∈ dot_S65x65_S65x65_S65x65_1_1_0_0_n_n.lhsBatch by decide), dif_pos (show (0 : Fin S65x65.rank) ∈ dot_S65x65_S65x65_S65x65_1_1_0_0_n_n.lhsNonContracting by decide)]
  rfl
theorem transposed_lhs_contracted (i : S65x65.Idx) (q : dot_S65x65_S65x65_S65x65_1_1_0_0_n_n.contr.Idx) :
    (dot_S65x65_S65x65_S65x65_1_1_0_0_n_n.lhsIdx i q 1).val = (q ⟨0, by decide⟩).val :=
  dot_S65x65_S65x65_S65x65_1_1_0_0_n_n.lhsIdx_val_of_single rfl i q
theorem transposed_rhs_kept (i : S65x65.Idx) (q : dot_S65x65_S65x65_S65x65_1_1_0_0_n_n.contr.Idx) :
    (dot_S65x65_S65x65_S65x65_1_1_0_0_n_n.rhsIdx i q 0).val = (i 1).val := by
  unfold DotDims.rhsIdx
  rw [dif_neg (show ¬(0 : Fin S65x65.rank) ∈ dot_S65x65_S65x65_S65x65_1_1_0_0_n_n.rhsBatch by decide), dif_pos (show (0 : Fin S65x65.rank) ∈ dot_S65x65_S65x65_S65x65_1_1_0_0_n_n.rhsNonContracting by decide)]
  rfl
theorem transposed_rhs_contracted (i : S65x65.Idx) (q : dot_S65x65_S65x65_S65x65_1_1_0_0_n_n.contr.Idx) :
    (dot_S65x65_S65x65_S65x65_1_1_0_0_n_n.rhsIdx i q 1).val = (q ⟨0, by decide⟩).val :=
  dot_S65x65_S65x65_S65x65_1_1_0_0_n_n.rhsIdx_val_of_single rfl i q

/-- The product with the right operand contracted on its last axis (a product with the transpose). -/
theorem transposed_apply (l : FVec Ideal S65x65 φ₁) (r : FVec Ideal S65x65 φ₂) (d e : Fin 65) :
    matmul (F := Ideal) dot_S65x65_S65x65_S65x65_1_1_0_0_n_n none l r (constant S65x65 .f32 0x00000000#32) (ix2 d e)
      = ∑ k : Fin 65, l (ix2 d k) * r (ix2 e k) := by
  simp only [matmul]
  rw [Ideal.matmul_constant_zero_apply, ← Equiv.sum_comp (contrEquiv1 dot_S65x65_S65x65_S65x65_1_1_0_0_n_n 65 rfl rfl).symm]
  refine Finset.sum_congr rfl fun k _ => ?_
  have hq := contrEquiv1_symm_val dot_S65x65_S65x65_S65x65_1_1_0_0_n_n 65 rfl rfl k
  have el : dot_S65x65_S65x65_S65x65_1_1_0_0_n_n.lhsIdx (ix2 d e) ((contrEquiv1 dot_S65x65_S65x65_S65x65_1_1_0_0_n_n 65 rfl rfl).symm k) = ix2 d k := funext fun a => Fin.ext (by
    match a with
    | ⟨0, _⟩ => exact transposed_lhs_kept _ _
    | ⟨1, _⟩ => exact (transposed_lhs_contracted _ _).trans hq)
  have er : dot_S65x65_S65x65_S65x65_1_1_0_0_n_n.rhsIdx (ix2 d e) ((contrEquiv1 dot_S65x65_S65x65_S65x65_1_1_0_0_n_n 65 rfl rfl).symm k) = ix2 e k := funext fun a => Fin.ext (by
    match a with
    | ⟨0, _⟩ => exact transposed_rhs_kept _ _
    | ⟨1, _⟩ => exact (transposed_rhs_contracted _ _).trans hq)
  rw [el, er]

/-! ### The ordinary product of a sequence (2048×65) by a 65×65 matrix. -/

theorem rows_lhs_kept (i : S2048x65.Idx) (q : dot_S2048x65_S65x65_S2048x65_1_0_0_1_n_n.contr.Idx) :
    (dot_S2048x65_S65x65_S2048x65_1_0_0_1_n_n.lhsIdx i q 0).val = (i 0).val := by
  unfold DotDims.lhsIdx
  rw [dif_neg (show ¬(0 : Fin S2048x65.rank) ∈ dot_S2048x65_S65x65_S2048x65_1_0_0_1_n_n.lhsBatch by decide), dif_pos (show (0 : Fin S2048x65.rank) ∈ dot_S2048x65_S65x65_S2048x65_1_0_0_1_n_n.lhsNonContracting by decide)]
  rfl
theorem rows_lhs_contracted (i : S2048x65.Idx) (q : dot_S2048x65_S65x65_S2048x65_1_0_0_1_n_n.contr.Idx) :
    (dot_S2048x65_S65x65_S2048x65_1_0_0_1_n_n.lhsIdx i q 1).val = (q ⟨0, by decide⟩).val :=
  dot_S2048x65_S65x65_S2048x65_1_0_0_1_n_n.lhsIdx_val_of_single rfl i q
theorem rows_rhs_kept (i : S2048x65.Idx) (q : dot_S2048x65_S65x65_S2048x65_1_0_0_1_n_n.contr.Idx) :
    (dot_S2048x65_S65x65_S2048x65_1_0_0_1_n_n.rhsIdx i q 1).val = (i 1).val := by
  unfold DotDims.rhsIdx
  rw [dif_neg (show ¬(1 : Fin S65x65.rank) ∈ dot_S2048x65_S65x65_S2048x65_1_0_0_1_n_n.rhsBatch by decide), dif_pos (show (1 : Fin S65x65.rank) ∈ dot_S2048x65_S65x65_S2048x65_1_0_0_1_n_n.rhsNonContracting by decide)]
  rfl
theorem rows_rhs_contracted (i : S2048x65.Idx) (q : dot_S2048x65_S65x65_S2048x65_1_0_0_1_n_n.contr.Idx) :
    (dot_S2048x65_S65x65_S2048x65_1_0_0_1_n_n.rhsIdx i q 0).val = (q ⟨0, by decide⟩).val :=
  dot_S2048x65_S65x65_S2048x65_1_0_0_1_n_n.rhsIdx_val_of_single rfl i q

/-- The ordinary product of a sequence (2048×65) by a 65×65 matrix. -/
theorem rows_apply (l : FVec Ideal S2048x65 φ₁) (r : FVec Ideal S65x65 φ₂) (n : Fin 2048) (e : Fin 65) :
    matmul (F := Ideal) dot_S2048x65_S65x65_S2048x65_1_0_0_1_n_n none l r (constant S2048x65 .f32 0x00000000#32) (ix2 n e)
      = ∑ d : Fin 65, l (ix2 n d) * r (ix2 d e) := by
  simp only [matmul]
  rw [Ideal.matmul_constant_zero_apply, ← Equiv.sum_comp (contrEquiv1 dot_S2048x65_S65x65_S2048x65_1_0_0_1_n_n 65 rfl rfl).symm]
  refine Finset.sum_congr rfl fun d _ => ?_
  have hq := contrEquiv1_symm_val dot_S2048x65_S65x65_S2048x65_1_0_0_1_n_n 65 rfl rfl d
  have el : dot_S2048x65_S65x65_S2048x65_1_0_0_1_n_n.lhsIdx (ix2 n e) ((contrEquiv1 dot_S2048x65_S65x65_S2048x65_1_0_0_1_n_n 65 rfl rfl).symm d) = ix2 n d := funext fun a => Fin.ext (by
    match a with
    | ⟨0, _⟩ => exact rows_lhs_kept _ _
    | ⟨1, _⟩ => exact (rows_lhs_contracted _ _).trans hq)
  have er : dot_S2048x65_S65x65_S2048x65_1_0_0_1_n_n.rhsIdx (ix2 n e) ((contrEquiv1 dot_S2048x65_S65x65_S2048x65_1_0_0_1_n_n 65 rfl rfl).symm d) = ix2 d e := funext fun a => Fin.ext (by
    match a with
    | ⟨1, _⟩ => exact rows_rhs_kept _ _
    | ⟨0, _⟩ => exact (rows_rhs_contracted _ _).trans hq)
  rw [el, er]

/-! ### The host's product of the two weight matrices, both contracted on their row axis (of extent 64). -/

theorem weights_lhs_kept (i : S65x65.Idx) (q : dot_S64x65_S64x65_S65x65_0_0_1_1_n_n.contr.Idx) :
    (dot_S64x65_S64x65_S65x65_0_0_1_1_n_n.lhsIdx i q 1).val = (i 0).val := by
  unfold DotDims.lhsIdx
  rw [dif_neg (show ¬(1 : Fin S64x65.rank) ∈ dot_S64x65_S64x65_S65x65_0_0_1_1_n_n.lhsBatch by decide), dif_pos (show (1 : Fin S64x65.rank) ∈ dot_S64x65_S64x65_S65x65_0_0_1_1_n_n.lhsNonContracting by decide)]
  rfl
theorem weights_lhs_contracted (i : S65x65.Idx) (q : dot_S64x65_S64x65_S65x65_0_0_1_1_n_n.contr.Idx) :
    (dot_S64x65_S64x65_S65x65_0_0_1_1_n_n.lhsIdx i q 0).val = (q ⟨0, by decide⟩).val :=
  dot_S64x65_S64x65_S65x65_0_0_1_1_n_n.lhsIdx_val_of_single rfl i q
theorem weights_rhs_kept (i : S65x65.Idx) (q : dot_S64x65_S64x65_S65x65_0_0_1_1_n_n.contr.Idx) :
    (dot_S64x65_S64x65_S65x65_0_0_1_1_n_n.rhsIdx i q 1).val = (i 1).val := by
  unfold DotDims.rhsIdx
  rw [dif_neg (show ¬(1 : Fin S64x65.rank) ∈ dot_S64x65_S64x65_S65x65_0_0_1_1_n_n.rhsBatch by decide), dif_pos (show (1 : Fin S64x65.rank) ∈ dot_S64x65_S64x65_S65x65_0_0_1_1_n_n.rhsNonContracting by decide)]
  rfl
theorem weights_rhs_contracted (i : S65x65.Idx) (q : dot_S64x65_S64x65_S65x65_0_0_1_1_n_n.contr.Idx) :
    (dot_S64x65_S64x65_S65x65_0_0_1_1_n_n.rhsIdx i q 0).val = (q ⟨0, by decide⟩).val :=
  dot_S64x65_S64x65_S65x65_0_0_1_1_n_n.rhsIdx_val_of_single rfl i q

/-- The host's product of the two weight matrices, both contracted on their row axis (of extent 64). -/
theorem weights_apply (l : FVec Ideal S64x65 φ₁) (r : FVec Ideal S64x65 φ₂) (d j : Fin 65) :
    Host.dotGeneral (F := Ideal) dot_S64x65_S64x65_S65x65_0_0_1_1_n_n none l r (ix2 d j)
      = ∑ h : Fin 64, l (ix2 h d) * r (ix2 h j) := by
  simp only [Host.dotGeneral]
  rw [Ideal.dotGeneral_apply, ← Equiv.sum_comp (contrEquiv1 dot_S64x65_S64x65_S65x65_0_0_1_1_n_n 64 rfl rfl).symm]
  refine Finset.sum_congr rfl fun h _ => ?_
  have hq := contrEquiv1_symm_val dot_S64x65_S64x65_S65x65_0_0_1_1_n_n 64 rfl rfl h
  have el : dot_S64x65_S64x65_S65x65_0_0_1_1_n_n.lhsIdx (ix2 d j) ((contrEquiv1 dot_S64x65_S64x65_S65x65_0_0_1_1_n_n 64 rfl rfl).symm h) = ix2 h d := funext fun a => Fin.ext (by
    match a with
    | ⟨1, _⟩ => exact weights_lhs_kept _ _
    | ⟨0, _⟩ => exact (weights_lhs_contracted _ _).trans hq)
  have er : dot_S64x65_S64x65_S65x65_0_0_1_1_n_n.rhsIdx (ix2 d j) ((contrEquiv1 dot_S64x65_S64x65_S65x65_0_0_1_1_n_n 64 rfl rfl).symm h) = ix2 h j := funext fun a => Fin.ext (by
    match a with
    | ⟨1, _⟩ => exact weights_rhs_kept _ _
    | ⟨0, _⟩ => exact (weights_rhs_contracted _ _).trans hq)
  rw [el, er]

end Cert.KernelIdeal.Products

end
-- ==== Proof.SequenceValue.lean ====
/-
  What the kernel body computes for ONE sequence, at the ideal instance, index by index.

  The body handles its four sequences one after the other in the same way. From the folded weights `a` (65×65), the value
  weights `wv` (65×65) and a sequence `xs` (a [1, 2048, 65] slab) it forms
      g = xsᵀ xs,   p = a g,   M = p wvᵀ,   out = xs M,
  rounding to bf16 between the products — the identity at the ideal instance — and dropping and restoring the leading unit
  axis. So the stored value at row `n`, column `e` is
      Σ_d xs(n, d) · Σ_k (Σ_j a(d, j) · Σ_m xs(m, j) · xs(m, k)) · wv(e, k)
  (`seqOut`). The four stores' payloads are this one function of their own slab.
-/
import proofs.«102743_j16226386444902_2_alg».proof.Proof.Gen.KernelIdeal.Skeleton
import proofs.«102743_j16226386444902_2_alg».proof.Proof.ProductsRead
import Idealize.ShloMosaic.Lib.ValueLayout

noncomputable section

namespace Cert.KernelIdeal.Sequence

open Cert.KernelIdeal Cert.KernelIdeal.Gen Cert.KernelIdeal.Products Idealize.ShloMosaic Idealize.ShloMosaic.ValueIdx

/-- One sequence's output at row `n`, column `e`: the sequence times (folded weights × Gram matrix × value weights
    transposed), the brackets as the body places them. -/
def seqOut (a wv : Vec Ideal S65x65 .f32) (xs : Vec Ideal S1x2048x65 .f32) (n : Fin 2048) (e : Fin 65) : EReal :=
  ∑ d : Fin 65, xs (ix3 (0 : Fin 1) n d) *
    ∑ k : Fin 65, (∑ j : Fin 65, a (ix2 d j) * ∑ m : Fin 2048, xs (ix3 (0 : Fin 1) m j) * xs (ix3 (0 : Fin 1) m k)) * wv (ix2 e k)

/-- The chain of the four products, on operands already in the products' own format, read at an index. -/
theorem chain_apply (a wv : FVec Ideal S65x65 .bf16) (x : FVec Ideal S2048x65 .bf16) (n : Fin 2048) (e : Fin 65) :
    matmul (F := Ideal) dot_S2048x65_S65x65_S2048x65_1_0_0_1_n_n none x
        (truncf .bf16 (matmul dot_S65x65_S65x65_S65x65_1_1_0_0_n_n none
          (truncf .bf16 (matmul dot_S65x65_S65x65_S65x65_1_0_0_1_n_n none a
            (truncf .bf16 (matmul dot_S2048x65_S2048x65_S65x65_0_0_1_1_n_n none x x (constant S65x65 .f32 0x00000000#32)) bitsLt_bf16_f32)
            (constant S65x65 .f32 0x00000000#32)) bitsLt_bf16_f32)
          wv (constant S65x65 .f32 0x00000000#32)) bitsLt_bf16_f32)
        (constant S2048x65 .f32 0x00000000#32) (ix2 n e)
      = ∑ d : Fin 65, x (ix2 n d) *
          ∑ k : Fin 65, (∑ j : Fin 65, a (ix2 d j) * ∑ m : Fin 2048, x (ix2 m j) * x (ix2 m k)) * wv (ix2 e k) := by
  rw [rows_apply]
  refine Finset.sum_congr rfl fun d _ => congrArg (x (ix2 n d) * ·) ?_
  rw [truncf_apply, transposed_apply]
  refine Finset.sum_congr rfl fun k _ => congrArg (· * wv (ix2 e k)) ?_
  rw [truncf_apply, square_apply]
  refine Finset.sum_congr rfl fun j _ => congrArg (a (ix2 d j) * ·) ?_
  rw [truncf_apply, gram_apply]

/-- The first store's payload (sequence 0 of the block) is `seqOut` of its slab. -/
theorem pay5_apply (a wv : Vec Ideal S65x65 .f32) (xs : Vec Ideal S1x2048x65 .f32) (u : Fin 1) (n : Fin 2048) (e : Fin 65) :
    k0_pay5 (F := Ideal) a wv xs (ix3 u n e) = seqOut a wv xs n e := by
  unfold k0_pay5 k0_pay3 k0_pay4
  dsimp only
  rw [shapeCast_ab_1ab_apply, chain_apply]
  simp only [truncf_apply, shapeCast_1ab_ab_apply, shapeCast_self]
  rfl

/-- The second store's payload (sequence 1 of the block) is `seqOut` of its slab. -/
theorem pay6_apply (a wv : Vec Ideal S65x65 .f32) (xs : Vec Ideal S1x2048x65 .f32) (u : Fin 1) (n : Fin 2048) (e : Fin 65) :
    k0_pay6 (F := Ideal) a wv xs (ix3 u n e) = seqOut a wv xs n e := by
  unfold k0_pay6 k0_pay3 k0_pay4
  dsimp only
  rw [shapeCast_ab_1ab_apply, chain_apply]
  simp only [truncf_apply, shapeCast_1ab_ab_apply, shapeCast_self]
  rfl

/-- The third store's payload (sequence 2 of the block), which takes the two weight matrices already rounded, is `seqOut`
    of its slab. -/
theorem pay1_apply (a wv : Vec Ideal S65x65 .f32) (xs : Vec Ideal S1x2048x65 .f32) (u : Fin 1) (n : Fin 2048) (e : Fin 65) :
    k0_pay1 (F := Ideal) (k0_pay3 a) (k0_pay4 wv) xs (ix3 u n e) = seqOut a wv xs n e := by
  unfold k0_pay1 k0_pay3 k0_pay4
  dsimp only
  rw [shapeCast_ab_1ab_apply, chain_apply]
  simp only [truncf_apply, shapeCast_1ab_ab_apply, shapeCast_self]
  rfl

/-- The fourth store's payload (sequence 3 of the block) likewise. -/
theorem pay2_apply (a wv : Vec Ideal S65x65 .f32) (xs : Vec Ideal S1x2048x65 .f32) (u : Fin 1) (n : Fin 2048) (e : Fin 65) :
    k0_pay2 (F := Ideal) (k0_pay3 a) (k0_pay4 wv) xs (ix3 u n e) = seqOut a wv xs n e := by
  unfold k0_pay2 k0_pay3 k0_pay4
  dsimp only
  rw [shapeCast_ab_1ab_apply, chain_apply]
  simp only [truncf_apply, shapeCast_1ab_ab_apply, shapeCast_self]
  rfl

end Cert.KernelIdeal.Sequence

end
-- ==== Proof.AttnLaw.lean ====
/-
  The algebraic law behind linear (non-softmax) attention, over abstract finite index types.

  With rows `x m` of a sequence, projection weights `wq`, `wk` (rows indexed by the hidden axis) and `wv`, the
  attention output at query row `xn` and output column `e` is

      Σ_m (Σ_h (Σ_d xn d · wq h d) · (Σ_j x m j · wk h j)) · (Σ_k x m k · wv e k)        (scores first: (Q Kᵀ) V)

  and the same number is

      Σ_d xn d · (Σ_k (Σ_j (Σ_h wq h d · wk h j) · (Σ_m x m j · x m k)) · wv e k)        (keys and values first)

  because matrix multiplication is associative: (X Wqᵀ)(X Wkᵀ)ᵀ(X Wvᵀ) = X ((Wqᵀ Wk)(Xᵀ X)) Wvᵀ. Over the reals this is
  `Matrix.mul_assoc`; over the extended reals it holds when every entry is a real number (the coercion commutes with
  finite sums and products), and fails in general: distributing a product over a sum is not valid at infinities.
-/
import Mathlib.Data.Matrix.Mul
import Mathlib.Data.EReal.Operations

open scoped Matrix

namespace LinAttn

variable {N D H E : Type*} [Fintype N] [Fintype D] [Fintype H] [Fintype E]

/-- The law over the reals: both sides are the `(n, e)` entry of one matrix product, bracketed two ways. -/
theorem reassoc_real (xn : D → ℝ) (x : N → D → ℝ) (wq wk : H → D → ℝ) (wv : E → D → ℝ) (e : E) :
    ∑ m, (∑ h, (∑ d, xn d * wq h d) * (∑ j, x m j * wk h j)) * (∑ k, x m k * wv e k)
      = ∑ d, xn d * (∑ k, (∑ j, (∑ h, wq h d * wk h j) * (∑ m, x m j * x m k)) * wv e k) := by
  classical
  -- the query row as a one-row matrix, so that both sides are entries of matrix products
  let Xn : Matrix Unit D ℝ := Matrix.of fun _ d => xn d
  let X : Matrix N D ℝ := Matrix.of x
  let Wq : Matrix H D ℝ := Matrix.of wq
  let Wk : Matrix H D ℝ := Matrix.of wk
  let Wv : Matrix E D ℝ := Matrix.of wv
  have key : ((Xn * Wqᵀ) * (X * Wkᵀ)ᵀ) * (X * Wvᵀ) = Xn * (((Wqᵀ * Wk) * (Xᵀ * X)) * Wvᵀ) := by
    simp only [Matrix.transpose_mul, Matrix.transpose_transpose, Matrix.mul_assoc]
  have := congrFun (congrFun key ()) e
  simpa only [Matrix.mul_apply, Matrix.transpose_apply, Matrix.of_apply, Xn, X, Wq, Wk, Wv] using this

/-- The coercion of reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the extended reals, for arrays all of whose entries are real numbers. -/
theorem reassoc_ereal (xn : D → ℝ) (x : N → D → ℝ) (wq wk : H → D → ℝ) (wv : E → D → ℝ) (e : E) :
    ∑ m, (∑ h, (∑ d, (xn d : EReal) * (wq h d : EReal)) * (∑ j, (x m j : EReal) * (wk h j : EReal))) * (∑ k, (x m k : EReal) * (wv e k : EReal))
      = ∑ d, (xn d : EReal) * (∑ k, (∑ j, (∑ h, (wq h d : EReal) * (wk h j : EReal)) * (∑ m, (x m j : EReal) * (x m k : EReal))) * (wv e k : EReal)) := by
  simp only [← EReal.coe_mul, ← coe_sum]
  exact congrArg _ (reassoc_real xn x wq wk wv e)

end LinAttn
-- ==== Proof.AttnSpec.lean ====
/-
  Linear attention over the four argument arrays, index by index, in the two bracketings the two programs use.

  Arrays: the sequences `X` ([32, 2048, 65]: batch, position, feature), the query and key weights `Wq`, `Wk` ([64, 65]:
  hidden, feature) and the value weights `Wv` ([65, 65]: output feature, feature). At batch `b`, position `n`, output
  feature `e`:
    * SCORES FIRST — project to queries, keys and values, form every query–key score, then weigh the values:
        Σ_m (Σ_h (Σ_d X(b,n,d)·Wq(h,d)) · (Σ_j X(b,m,j)·Wk(h,j))) · (Σ_k X(b,m,k)·Wv(e,k));
    * KEYS AND VALUES FIRST — fold the two weight matrices, form the sequence's Gram matrix, and apply the 65×65 product
      to each position:
        Σ_d X(b,n,d) · Σ_k (Σ_j (Σ_h Wq(h,d)·Wk(h,j)) · Σ_m X(b,m,j)·X(b,m,k)) · Wv(e,k).
  The two agree when every entry of the four arrays is a real number (`keysFirst_eq_scoresFirst`): the reassociation of a
  matrix product, which distributes products over sums and so is not available at infinite entries.
-/
import proofs.«102743_j16226386444902_2_alg».proof.Proof.AttnLaw
import Idealize.ShloMosaic.Lib.ValueIdx

noncomputable section

namespace LinAttn

open Idealize.ShloMosaic Idealize.ShloMosaic.ValueIdx

/-- The sequences' shape: batch, position, feature. -/
abbrev SeqShape : Shape := ⟨3, ![32, 2048, 65]⟩
/-- The query and key weights' shape: hidden, feature. -/
abbrev QKShape : Shape := ⟨2, ![64, 65]⟩
/-- The value weights' shape: output feature, feature. -/
abbrev VShape : Shape := ⟨2, ![65, 65]⟩

variable (X : SeqShape.Idx → EReal) (Wq Wk : QKShape.Idx → EReal) (Wv : VShape.Idx → EReal)

/-- Scores first, at batch `b`, position `n`, output feature `e`. -/
def scoresFirstAt (b : Fin 32) (n : Fin 2048) (e : Fin 65) : EReal :=
  ∑ m : Fin 2048, (∑ h : Fin 64, (∑ d : Fin 65, X (ix3 b n d) * Wq (ix2 h d)) * (∑ j : Fin 65, X (ix3 b m j) * Wk (ix2 h j)))
    * (∑ k : Fin 65, X (ix3 b m k) * Wv (ix2 e k))

/-- Keys and values first, at batch `b`, position `n`, output feature `e`. -/
def keysFirstAt (b : Fin 32) (n : Fin 2048) (e : Fin 65) : EReal :=
  ∑ d : Fin 65, X (ix3 b n d) *
    ∑ k : Fin 65, (∑ j : Fin 65, (∑ h : Fin 64, Wq (ix2 h d) * Wk (ix2 h j)) * ∑ m : Fin 2048, X (ix3 b m j) * X (ix3 b m k)) * Wv (ix2 e k)

/-- Scores first, as one array. -/
def scoresFirst : SeqShape.Idx → EReal := fun i => scoresFirstAt X Wq Wk Wv (i 0) (i 1) (i 2)

/-- Keys and values first, as one array. -/
def keysFirst : SeqShape.Idx → EReal := fun i => keysFirstAt X Wq Wk Wv (i 0) (i 1) (i 2)

theorem scoresFirst_ix3 (b : Fin 32) (n : Fin 2048) (e : Fin 65) : scoresFirst X Wq Wk Wv (ix3 b n e) = scoresFirstAt X Wq Wk Wv b n e := rfl

theorem keysFirst_ix3 (b : Fin 32) (n : Fin 2048) (e : Fin 65) : keysFirst X Wq Wk Wv (ix3 b n e) = keysFirstAt X Wq Wk Wv b n e := rfl

variable {X Wq Wk Wv}

/-- For arrays of real numbers the two bracketings are one array. -/
theorem keysFirst_eq_scoresFirst (hX : ∀ i, ∃ r : ℝ, X i = r) (hq : ∀ i, ∃ r : ℝ, Wq i = r) (hk : ∀ i, ∃ r : ℝ, Wk i = r)
    (hv : ∀ i, ∃ r : ℝ, Wv i = r) : keysFirst X Wq Wk Wv = scoresFirst X Wq Wk Wv := by
  choose x hx using hX
  choose wq hwq using hq
  choose wk hwk using hk
  choose wv hwv using hv
  funext i
  unfold keysFirst scoresFirst keysFirstAt scoresFirstAt
  simp only [hx, hwq, hwk, hwv]
  exact (reassoc_ereal (fun d => x (ix3 (i 0) (i 1) d)) (fun m j => x (ix3 (i 0) m j)) (fun h d => wq (ix2 h d))
    (fun h d => wk (ix2 h d)) (fun e k => wv (ix2 e k)) (i 2)).symm

end LinAttn

end
-- ==== Proof.BlockValue.lean ====
/-
  What the kernel body leaves in its output block, as ONE function of the block's inputs.

  A grid point's block holds four sequences ([4, 2048, 65]); the body loads sequence `s`, computes that sequence's output
  from it and the two 65×65 weight blocks, and stores it at sequence `s` of the output block, for `s` = 0, 1, 2, 3. The four
  stores tile the block, and each stored value is the same function of its own sequence (`Sequence.seqOut`), so the block ends
  holding, at `(s, n, e)`,
      Σ_d x0(s, n, d) · Σ_k (Σ_j a(d, j) · Σ_m x0(s, m, j) · x0(s, m, k)) · wv(e, k)
  (`blockOut`). When the sequence block is four consecutive batches of the sequences array, `a` is the folded weights
  `Wqᵀ Wk` and `wv` the value weights, this is attention with keys and values first at batch `4t + s`.
-/
import proofs.«102743_j16226386444902_2_alg».proof.Proof.Gen.KernelIdeal.Frame
import proofs.«102743_j16226386444902_2_alg».proof.Proof.SequenceValue
import proofs.«102743_j16226386444902_2_alg».proof.Proof.AttnSpec
import Idealize.ShloMosaic.Lib.Pipeline.Value

noncomputable section

namespace Cert.KernelIdeal.Block

open Cert.KernelIdeal Cert.KernelIdeal.Gen Cert.KernelIdeal.Sequence Idealize.ShloMosaic Idealize.ShloMosaic.ValueIdx

theorem zero_offsets : (![0, 0] : Fin 2 → Nat) = fun _ => 0 := funext fun a => by fin_cases a <;> rfl

/-- The output block at sequence `s`, row `n`, column `e`. -/
def blockOutAt (x0 : Vec Ideal S4x2048x65 .f32) (a wv : Vec Ideal S65x65 .f32) (s : Fin 4) (n : Fin 2048) (e : Fin 65) : EReal :=
  ∑ d : Fin 65, x0 (ix3 s n d) *
    ∑ k : Fin 65, (∑ j : Fin 65, a (ix2 d j) * ∑ m : Fin 2048, x0 (ix3 s m j) * x0 (ix3 s m k)) * wv (ix2 e k)

/-- The output block as one array. -/
def blockOut (x0 : Vec Ideal S4x2048x65 .f32) (a wv : Vec Ideal S65x65 .f32) : Vec Ideal S4x2048x65 .f32 :=
  fun y => blockOutAt x0 a wv (y 0) (y 1) (y 2)

/-! ## Where each sequence's slab sits in the block -/

/-- Sequence 0 of the block: the slab's index `(u, n, e)` is the block's `(0, n, e)`. -/
theorem slab0_idx (u : Fin 1) (n : Fin 2048) (e : Fin 65) : r0_1.idx (ix3 u n e) = ix3 (0 : Fin 4) n e :=
  funext fun a => Fin.ext (by
    have hu := u.isLt
    match a with
    | ⟨0, _⟩ => show 0 + 1 * u.val = 0; omega
    | ⟨1, _⟩ => show 0 + 1 * n.val = n.val; omega
    | ⟨2, _⟩ => show 0 + 1 * e.val = e.val; omega)
theorem ld_slab0 (x0 : Vec Ideal S4x2048x65 .f32) (u : Fin 1) (n : Fin 2048) (e : Fin 65) :
    View.ld x0 r0_1 (ix3 u n e) = x0 (ix3 (0 : Fin 4) n e) := congrArg x0 (slab0_idx u n e)

/-- Sequence 1 of the block: the slab's index `(u, n, e)` is the block's `(1, n, e)`. -/
theorem slab1_idx (u : Fin 1) (n : Fin 2048) (e : Fin 65) : r0_2.idx (ix3 u n e) = ix3 (1 : Fin 4) n e :=
  funext fun a => Fin.ext (by
    have hu := u.isLt
    match a with
    | ⟨0, _⟩ => show 1 + 1 * u.val = 1; omega
    | ⟨1, _⟩ => show 0 + 1 * n.val = n.val; omega
    | ⟨2, _⟩ => show 0 + 1 * e.val = e.val; omega)
theorem ld_slab1 (x0 : Vec Ideal S4x2048x65 .f32) (u : Fin 1) (n : Fin 2048) (e : Fin 65) :
    View.ld x0 r0_2 (ix3 u n e) = x0 (ix3 (1 : Fin 4) n e) := congrArg x0 (slab1_idx u n e)

/-- Sequence 2 of the block: the slab's index `(u, n, e)` is the block's `(2, n, e)`. -/
theorem slab2_idx (u : Fin 1) (n : Fin 2048) (e : Fin 65) : r0_3.idx (ix3 u n e) = ix3 (2 : Fin 4) n e :=
  funext fun a => Fin.ext (by
    have hu := u.isLt
    match a with
    | ⟨0, _⟩ => show 2 + 1 * u.val = 2; omega
    | ⟨1, _⟩ => show 0 + 1 * n.val = n.val; omega
    | ⟨2, _⟩ => show 0 + 1 * e.val = e.val; omega)
theorem ld_slab2 (x0 : Vec Ideal S4x2048x65 .f32) (u : Fin 1) (n : Fin 2048) (e : Fin 65) :
    View.ld x0 r0_3 (ix3 u n e) = x0 (ix3 (2 : Fin 4) n e) := congrArg x0 (slab2_idx u n e)

/-- Sequence 3 of the block: the slab's index `(u, n, e)` is the block's `(3, n, e)`. -/
theorem slab3_idx (u : Fin 1) (n : Fin 2048) (e : Fin 65) : r0_4.idx (ix3 u n e) = ix3 (3 : Fin 4) n e :=
  funext fun a => Fin.ext (by
    have hu := u.isLt
    match a with
    | ⟨0, _⟩ => show 3 + 1 * u.val = 3; omega
    | ⟨1, _⟩ => show 0 + 1 * n.val = n.val; omega
    | ⟨2, _⟩ => show 0 + 1 * e.val = e.val; omega)
theorem ld_slab3 (x0 : Vec Ideal S4x2048x65 .f32) (u : Fin 1) (n : Fin 2048) (e : Fin 65) :
    View.ld x0 r0_4 (ix3 u n e) = x0 (ix3 (3 : Fin 4) n e) := congrArg x0 (slab3_idx u n e)

/-! ## Each store's payload is the block's function on its slab -/

/-- A slab that reads sequence `s` of the block gives, through the one-sequence function, the block's function at `s`. -/
theorem seqOut_of_slab (a wv : Vec Ideal S65x65 .f32) (xs : Vec Ideal S1x2048x65 .f32) (x0 : Vec Ideal S4x2048x65 .f32) (s : Fin 4)
    (h : ∀ (n : Fin 2048) (d : Fin 65), xs (ix3 (0 : Fin 1) n d) = x0 (ix3 s n d)) (n : Fin 2048) (e : Fin 65) :
    seqOut a wv xs n e = blockOutAt x0 a wv s n e := by
  unfold seqOut blockOutAt
  simp only [h]

/-- The store of sequence 0: its payload at a slab index is the block's function at the index the store puts it. -/
theorem piece0 (x0 : Vec Ideal S4x2048x65 .f32) (x1 x2 : Vec Ideal S65x65 .f32) (z : S1x2048x65.Idx) :
    k0_pay5 (F := Ideal) x1 x2 (View.ld x0 r0_1) z = blockOut x0 x1 x2 (r0_1.emb z) := by
  obtain ⟨u, n, e, rfl⟩ : ∃ (u : Fin 1) (n : Fin 2048) (e : Fin 65), z = ix3 u n e := ⟨z 0, z 1, z 2, eq_ix3 z⟩
  rw [pay5_apply]
  show seqOut x1 x2 (View.ld x0 r0_1) n e = blockOut x0 x1 x2 (r0_1.idx (ix3 u n e))
  rw [slab0_idx]
  exact seqOut_of_slab x1 x2 (View.ld x0 r0_1) x0 (0 : Fin 4) (fun n d => ld_slab0 x0 0 n d) n e

/-- The store of sequence 1: its payload at a slab index is the block's function at the index the store puts it. -/
theorem piece1 (x0 : Vec Ideal S4x2048x65 .f32) (x1 x2 : Vec Ideal S65x65 .f32) (z : S1x2048x65.Idx) :
    k0_pay6 (F := Ideal) x1 x2 (View.ld x0 r0_2) z = blockOut x0 x1 x2 (r0_2.emb z) := by
  obtain ⟨u, n, e, rfl⟩ : ∃ (u : Fin 1) (n : Fin 2048) (e : Fin 65), z = ix3 u n e := ⟨z 0, z 1, z 2, eq_ix3 z⟩
  rw [pay6_apply]
  show seqOut x1 x2 (View.ld x0 r0_2) n e = blockOut x0 x1 x2 (r0_2.idx (ix3 u n e))
  rw [slab1_idx]
  exact seqOut_of_slab x1 x2 (View.ld x0 r0_2) x0 (1 : Fin 4) (fun n d => ld_slab1 x0 0 n d) n e

/-- The store of sequence 2: its payload at a slab index is the block's function at the index the store puts it. -/
theorem piece2 (x0 : Vec Ideal S4x2048x65 .f32) (x1 x2 : Vec Ideal S65x65 .f32) (z : S1x2048x65.Idx) :
    k0_pay1 (F := Ideal) (k0_pay3 x1) (k0_pay4 x2) (View.ld x0 r0_3) z = blockOut x0 x1 x2 (r0_3.emb z) := by
  obtain ⟨u, n, e, rfl⟩ : ∃ (u : Fin 1) (n : Fin 2048) (e : Fin 65), z = ix3 u n e := ⟨z 0, z 1, z 2, eq_ix3 z⟩
  rw [pay1_apply]
  show seqOut x1 x2 (View.ld x0 r0_3) n e = blockOut x0 x1 x2 (r0_3.idx (ix3 u n e))
  rw [slab2_idx]
  exact seqOut_of_slab x1 x2 (View.ld x0 r0_3) x0 (2 : Fin 4) (fun n d => ld_slab2 x0 0 n d) n e

/-- The store of sequence 3: its payload at a slab index is the block's function at the index the store puts it. -/
theorem piece3 (x0 : Vec Ideal S4x2048x65 .f32) (x1 x2 : Vec Ideal S65x65 .f32) (z : S1x2048x65.Idx) :
    k0_pay2 (F := Ideal) (k0_pay3 x1) (k0_pay4 x2) (View.ld x0 r0_4) z = blockOut x0 x1 x2 (r0_4.emb z) := by
  obtain ⟨u, n, e, rfl⟩ : ∃ (u : Fin 1) (n : Fin 2048) (e : Fin 65), z = ix3 u n e := ⟨z 0, z 1, z 2, eq_ix3 z⟩
  rw [pay2_apply]
  show seqOut x1 x2 (View.ld x0 r0_4) n e = blockOut x0 x1 x2 (r0_4.idx (ix3 u n e))
  rw [slab3_idx]
  exact seqOut_of_slab x1 x2 (View.ld x0 r0_4) x0 (3 : Fin 4) (fun n d => ld_slab3 x0 0 n d) n e

/-- The body's result for the output window: its four stores, taken together, leave `blockOut` of the input blocks. -/
theorem out_eq (x0 : Vec Ideal S4x2048x65 .f32) (x1 x2 : Vec Ideal S65x65 .f32) :
    out0_3 (F := Ideal) x0 x1 x2 = blockOut x0 x1 x2 := by
  funext y
  unfold out0_3
  simp only [View.ld_unit_zero (S := S65x65) zero_offsets]
  refine View.canon_apply_of_pieces (blockOut x0 x1 x2) _ ?_ y (cover0_3 _ _ _ _ y)
  intro p hp z
  simp only [List.mem_cons, List.not_mem_nil, or_false] at hp
  rcases hp with rfl | rfl | rfl | rfl
  · exact piece3 x0 x1 x2 z
  · exact piece2 x0 x1 x2 z
  · exact piece1 x0 x1 x2 z
  · exact piece0 x0 x1 x2 z

/-- If sequence `s` of the block is batch `b` of the sequences, the first weight block the folded weights and the second
    the value weights, the block's function at `(s, n, e)` is attention with keys and values first at `(b, n, e)`. -/
theorem blockOutAt_eq_keysFirstAt (x0 : Vec Ideal S4x2048x65 .f32) (x1 x2 : Vec Ideal S65x65 .f32)
    (X : LinAttn.SeqShape.Idx → EReal) (Wq Wk : LinAttn.QKShape.Idx → EReal) (Wv : LinAttn.VShape.Idx → EReal)
    (s : Fin 4) (b : Fin 32) (h0 : ∀ (n : Fin 2048) (d : Fin 65), x0 (ix3 s n d) = X (ix3 b n d))
    (h1 : ∀ d j : Fin 65, x1 (ix2 d j) = ∑ h : Fin 64, Wq (ix2 h d) * Wk (ix2 h j))
    (h2 : ∀ e k : Fin 65, x2 (ix2 e k) = Wv (ix2 e k)) (n : Fin 2048) (e : Fin 65) :
    blockOutAt x0 x1 x2 s n e = LinAttn.keysFirstAt X Wq Wk Wv b n e := by
  unfold blockOutAt LinAttn.keysFirstAt
  simp only [h0, h1, h2]

end Cert.KernelIdeal.Block

end
-- ==== Proof.KernelValue.lean ====
/-
  The kernel's result array after the run: attention, keys and values first, of the argument arrays.

  The grid has 8 points; point `t` takes batches `4t … 4t + 3` of the sequences as its input block, the whole folded-weights
  matrix (which the host formed before the kernel started) and the whole value-weights matrix, and writes back batches
  `4t … 4t + 3` of the result. So:
    * sequence `s` of point `t`'s input block is batch `4t + s` of the sequences (`seqs_block`);
    * the first weight block is `Wqᵀ Wk`, read at an index as a sum over the hidden axis (`folded_block`);
    * the second weight block is the value weights (`value_block`);
    * what point `t` writes back is block `t` of the keys-and-values-first array (`flushed_eq`);
    * every batch `b` lies in the block of point `b / 4`, so the blocks cover the result (`covered`),
  and the result array ends holding that array whole (`final`, `run`).
-/
import proofs.«102743_j16226386444902_2_alg».proof.Proof.Gen.KernelIdeal.Value
import proofs.«102743_j16226386444902_2_alg».proof.Proof.BlockValue
import Idealize.ShloMosaic.Lib.Pipeline.Value
import Idealize.ShloMosaic.Lib.StableHlo.Run
import Idealize.ShloMosaic.Lib.Tactic

noncomputable section

namespace Cert.KernelIdeal.Attn

open Cert.KernelIdeal Cert.KernelIdeal.Gen Cert.KernelIdeal.Block Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The four argument arrays as launched, on core `c`: the sequences, the query, key and value weights. -/
abbrev seqs (c : Dev nD) : FVec Ideal S32x2048x65 .f32 := m ((c : Thread nD τ).loc main_arg0)
abbrev wq (c : Dev nD) : FVec Ideal S64x65 .f32 := m ((c : Thread nD τ).loc main_arg1)
abbrev wk (c : Dev nD) : FVec Ideal S64x65 .f32 := m ((c : Thread nD τ).loc main_arg2)
abbrev wv (c : Dev nD) : FVec Ideal S65x65 .f32 := m ((c : Thread nD τ).loc main_arg3)

/-- The array the result ends holding: attention with keys and values first, of the four arguments as launched. -/
def result (c : Dev nD) : Buf (Elt Ideal) ((c : Thread nD τ).loc main_v1) :=
  LinAttn.keysFirst (seqs m c) (wq m c) (wk m c) (wv m c)

/-- The printed index maps over the 8 grid points: the sequences' and the result's block index is the point on the batch
    axis and zero on the others; the two weight matrices are one block each. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Sequence `s` of point `t`'s input block is batch `4t + s` of the sequences. -/
theorem seqs_block (c : Dev nD) (t : Fin cfg0.N) (s : Fin 4) (b : Fin 32) (hb : b.val = 4 * t.val + s.val) (n : Fin 2048) (d : Fin 65) :
    (iblk m c 0 t : Vec Ideal S4x2048x65 .f32) (ix3 s n d) = seqs m c (ix3 b n d) := by
  obtain ⟨e0, e1, e2, -⟩ := idx_facts t
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 3) * 4 + 1 * s.val = b.val; rw [e0, hb]; omega
  | ⟨1, _⟩ => show win0_0.index t (1 : Fin 3) * 2048 + 1 * n.val = n.val; rw [e1]; omega
  | ⟨2, _⟩ => show win0_0.index t (2 : Fin 3) * 65 + 1 * d.val = d.val; rw [e2]; omega

/-- The host's one operation before the kernel starts leaves the product of the query and key weights in the buffer
    the first weight window stages. -/
theorem folded_array (c : Dev nD) :
    (V m c main_v0 : S65x65.Idx → EReal) = Host.dotGeneral (F := Ideal) dot_S64x65_S64x65_S65x65_0_0_1_1_n_n none
      (wq m c) (wk m c) := by
  dsimp only [Gen.V, Gen.hostOps0]
  after_results

/-- The first weight block, at every point, is the folded weights: at `(d, j)` the sum over the hidden axis. -/
theorem folded_block (c : Dev nD) (t : Fin cfg0.N) (d j : Fin 65) :
    (iblk m c 1 t : Vec Ideal S65x65 .f32) (ix2 d j)
      = ∑ h : Fin 64, wq m c (ix2 h d) * wk m c (ix2 h j) := by
  obtain ⟨-, -, -, e0, e1, -⟩ := idx_facts t
  rw [← Products.weights_apply, ← folded_array m c]
  unfold iblk
  rw [View.read_apply]
  show V m c main_v0 _ = V m c main_v0 _
  refine congrArg (V m c main_v0) (funext fun a => Fin.ext ?_)
  match a with
  | ⟨0, _⟩ => show win0_1.index t (0 : Fin 2) * 65 + 1 * d.val = d.val; rw [e0]; omega
  | ⟨1, _⟩ => show win0_1.index t (1 : Fin 2) * 65 + 1 * j.val = j.val; rw [e1]; omega

/-- The second weight block, at every point, is the value weights. -/
theorem value_block (c : Dev nD) (t : Fin cfg0.N) (e k : Fin 65) :
    (iblk m c 2 t : Vec Ideal S65x65 .f32) (ix2 e k) = wv m c (ix2 e k) := by
  obtain ⟨-, -, -, -, -, e0, e1, -⟩ := idx_facts t
  unfold iblk
  rw [View.read_apply]
  show V m c main_arg3 _ = m ((c : Thread nD τ).loc main_arg3) _
  rw [V_main_arg3]
  refine congrArg (m ((c : Thread nD τ).loc main_arg3)) (funext fun a => Fin.ext ?_)
  match a with
  | ⟨0, _⟩ => show win0_2.index t (0 : Fin 2) * 65 + 1 * e.val = e.val; rw [e0]; omega
  | ⟨1, _⟩ => show win0_2.index t (1 : Fin 2) * 65 + 1 * k.val = k.val; rw [e1]; omega

/-- Block `t` of the result array, read at sequence `s`, is the array at batch `4t + s`. -/
theorem result_block (c : Dev nD) (t : Fin cfg0.N) (s : Fin 4) (b : Fin 32) (hb : b.val = 4 * t.val + s.val) (n : Fin 2048) (e : Fin 65) :
    (((cfg0.win 3).blk t).view.read (Elt Ideal) (result m c) : Vec Ideal S4x2048x65 .f32) (ix3 s n e)
      = LinAttn.keysFirstAt (seqs m c) (wq m c) (wk m c) (wv m c) b n e := by
  obtain ⟨-, -, -, -, -, -, -, e0, e1, e2⟩ := idx_facts t
  rw [View.read_apply, ← LinAttn.keysFirst_ix3]
  show result m c _ = result m c _
  refine congrArg (result m c) (funext fun a => Fin.ext ?_)
  match a with
  | ⟨0, _⟩ => show win0_3.index t (0 : Fin 3) * 4 + 1 * s.val = b.val; rw [e0, hb]; omega
  | ⟨1, _⟩ => show win0_3.index t (1 : Fin 3) * 2048 + 1 * n.val = n.val; rw [e1]; omega
  | ⟨2, _⟩ => show win0_3.index t (2 : Fin 3) * 65 + 1 * e.val = e.val; rw [e2]; omega

/-- WHAT POINT `t` WRITES BACK is block `t` of the keys-and-values-first array. -/
theorem flushed_eq (c : Dev nD) (t : Fin cfg0.N) :
    (dats m 0 c).flushed 3 t = ((cfg0.win 3).blk t).view.read (Elt Ideal) (result m c) := by
  rw [Value.flushed3]
  refine (congrArg ((cfg0.win 3).cut (grid0.coords t)) (out_eq _ _ _)).trans ?_
  funext y
  obtain ⟨s, n, e, rfl⟩ : ∃ (s : Fin 4) (n : Fin 2048) (e : Fin 65), y = ix3 s n e := ⟨y 0, y 1, y 2, @eq_ix3 4 2048 65 y⟩
  have ht : t.val < 8 := by have := t.isLt; have hN : cfg0.N = 8 := N_0; omega
  have hs := s.isLt
  obtain ⟨b, hb⟩ : ∃ b : Fin 32, b.val = 4 * t.val + s.val := ⟨⟨4 * t.val + s.val, by omega⟩, rfl⟩
  rw [result_block m c t s b hb n e]
  show blockOutAt (iblk m c 0 t) (iblk m c 1 t) (iblk m c 2 t) s n e = _
  exact blockOutAt_eq_keysFirstAt _ _ _ _ _ _ _ s b (fun n d => seqs_block m c t s b hb n d) (fun d j => folded_block m c t d j)
    (fun e k => value_block m c t e k) n e

/-- An index of the result array is in point `t`'s block iff each coordinate is in the block's range on its axis. -/
theorem mem_blk (t : Fin cfg0.N) (i : S32x2048x65.Idx) :
    i ∈ ((cfg0.win 3).blk t).view.set ↔ ∀ a : Fin 3, win0_3.index t a * S4x2048x65.size a ≤ (i a).val
      ∧ (i a).val < win0_3.index t a * S4x2048x65.size a + S4x2048x65.size a := by
  show i ∈ ((View.whole main_v1).slice (win0_3.rect t)).set ↔ _
  rw [View.set_slice_whole, Rect.mem_set_unit]
  exact Iff.rfl

/-- Every index of the result array is in the block of the point its batch falls in: batch `b` in point `b / 4`. -/
theorem covered (i : S32x2048x65.Idx) : ∃ t : Fin cfg0.N, (cfg0.win 3).flush t = true ∧ i ∈ ((cfg0.win 3).blk t).view.set := by
  have h0 : (i 0).val < 32 := (i 0).isLt
  have h1 : (i 1).val < 2048 := (i 1).isLt
  have h2 : (i 2).val < 65 := (i 2).isLt
  have hN : cfg0.N = 8 := N_0
  let t : Fin cfg0.N := ⟨(i 0).val / 4, by rw [hN]; omega⟩
  obtain ⟨-, -, -, -, -, -, -, e0, e1, e2⟩ := idx_facts t
  have ht : t.val = (i 0).val / 4 := rfl
  refine ⟨t, flush0_3 t, ?_⟩
  rw [mem_blk]
  intro a
  match a with
  | ⟨0, _⟩ => show win0_3.index t (0 : Fin 3) * 4 ≤ (i 0).val ∧ (i 0).val < win0_3.index t (0 : Fin 3) * 4 + 4; rw [e0, ht]; omega
  | ⟨1, _⟩ => show win0_3.index t (1 : Fin 3) * 2048 ≤ (i 1).val ∧ (i 1).val < win0_3.index t (1 : Fin 3) * 2048 + 2048; rw [e1]; omega
  | ⟨2, _⟩ => show win0_3.index t (2 : Fin 3) * 65 ≤ (i 2).val ∧ (i 2).val < win0_3.index t (2 : Fin 3) * 65 + 65; rw [e2]; omega

/-- THE RESULT ARRAY after the run is the keys-and-values-first array, whole. -/
theorem final (c : Dev nD) : (dats m 0 c).arrAt 3 cfg0.N = result m c :=
  (dats m 0 c).arrAt_eq_of_cover 3 (result m c) (fun t _ => flushed_eq m c t) covered

/-- The run, read: every weakly fair execution ends with the result array at the keys-and-values-first array of the
    arguments and the arguments as launched. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Attn

end
-- ==== Proof.ReferenceValue.lean ====
/-
  The reference's result is linear attention with the scores formed first.

  The reference is five host products: the queries `X Wqᵀ`, the keys `X Wkᵀ`, the values `X Wvᵀ`, per batch the scores
  `Q Kᵀ`, and per batch the scores times the values. Read at an index through the generated one-operation-at-a-time
  lemmas, each product is a sum over its contracted axis; what remains is to name the operand indices they compose by
  their coordinates.
-/
import proofs.«102743_j16226386444902_2_alg».proof.Proof.Gen.ReferenceIdeal.Read
import proofs.«102743_j16226386444902_2_alg».proof.Proof.AttnSpec

noncomputable section

namespace Cert.ReferenceIdeal.Attn

open Cert.ReferenceIdeal Cert.ReferenceIdeal.Gen Cert.ReferenceIdeal.Read Idealize.ShloMosaic Idealize.ShloMosaic.ValueIdx

variable (b : Fin 32) (n : Fin 2048) (e : Fin 65) (m : Fin 2048) (h : Fin 64)

/-- The query's factor of the sequences: batch `b`, position `n`, feature `d`. -/
theorem query_seq (d : Fin 65) : lidx_main_v0 (lidx_main_v3 (lidx_main_v4 (ix3 b n e) m) h) d = ix3 b n d :=
  funext fun a => by match a with | ⟨0, _⟩ => rfl | ⟨1, _⟩ => rfl | ⟨2, _⟩ => rfl
/-- The query's factor of its weights: hidden `h`, feature `d`. -/
theorem query_weight (d : Fin 65) : ridx_main_v0 (lidx_main_v3 (lidx_main_v4 (ix3 b n e) m) h) d = ix2 h d :=
  funext fun a => by match a with | ⟨0, _⟩ => rfl | ⟨1, _⟩ => rfl
/-- The key's factor of the sequences: batch `b`, position `m`, feature `j`. -/
theorem key_seq (j : Fin 65) : lidx_main_v1 (ridx_main_v3 (lidx_main_v4 (ix3 b n e) m) h) j = ix3 b m j :=
  funext fun a => by match a with | ⟨0, _⟩ => rfl | ⟨1, _⟩ => rfl | ⟨2, _⟩ => rfl
/-- The key's factor of its weights: hidden `h`, feature `j`. -/
theorem key_weight (j : Fin 65) : ridx_main_v1 (ridx_main_v3 (lidx_main_v4 (ix3 b n e) m) h) j = ix2 h j :=
  funext fun a => by match a with | ⟨0, _⟩ => rfl | ⟨1, _⟩ => rfl
/-- The value's factor of the sequences: batch `b`, position `m`, feature `k`. -/
theorem value_seq (k : Fin 65) : lidx_main_v2 (ridx_main_v4 (ix3 b n e) m) k = ix3 b m k :=
  funext fun a => by match a with | ⟨0, _⟩ => rfl | ⟨1, _⟩ => rfl | ⟨2, _⟩ => rfl
/-- The value's factor of its weights: output feature `e`, feature `k`. -/
theorem value_weight (k : Fin 65) : ridx_main_v2 (ridx_main_v4 (ix3 b n e) m) k = ix2 e k :=
  funext fun a => by match a with | ⟨0, _⟩ => rfl | ⟨1, _⟩ => rfl

/-- The reference's last stage, as a function of the four argument arrays, is attention with the scores first. -/
theorem result_eq (x0 : (⟨S32x2048x65, .f32⟩ : BufTy).Contents (Elt Ideal)) (x1 x2 : (⟨S64x65, .f32⟩ : BufTy).Contents (Elt Ideal))
    (x3 : (⟨S65x65, .f32⟩ : BufTy).Contents (Elt Ideal)) :
    val_main_v4 (F := Ideal) x0 x1 x2 x3 = LinAttn.scoresFirst x0 x1 x2 x3 := by
  funext i
  obtain ⟨b, n, e, rfl⟩ : ∃ (b : Fin 32) (n : Fin 2048) (e : Fin 65), i = ix3 b n e := ⟨i 0, i 1, i 2, eq_ix3 i⟩
  rw [val_main_v4_apply, LinAttn.scoresFirst_ix3]
  simp only [val_main_v3_apply, val_main_v2_apply, val_main_v0_apply, val_main_v1_apply, query_seq, query_weight, key_seq,
    key_weight, value_seq, value_weight]
  rfl

end Cert.ReferenceIdeal.Attn

end
-- ==== Proof.FiniteInputs.lean ====
/-
  The precondition, decoded: every entry of the four argument arrays is a real number.

  The precondition is the conjunction, over the four arrays, of "every entry's absolute value is below +∞" — an `and` over
  all entries of the comparison `|x| < +∞`, the four results joined by `and`. At the ideal instance an entry is an extended
  real, the literal it is compared with denotes +∞, and `|x| < +∞` excludes exactly the two infinities.
-/
import proofs.«102743_j16226386444902_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Cert.Pre_finite_inputs.Gen Idealize.ShloMosaic

/-- The scalar shape has one index. -/
instance : Subsingleton S_.Idx := ⟨fun a b => funext fun d => d.elim0⟩

/-- The literal the entries are compared with denotes +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ r : ℝ, x = r := by
  induction x using EReal.rec with
  | bot => simp at h
  | coe r => exact ⟨r, rfl⟩
  | top => simp at h

/-- One entry's comparison, true, says the entry is a real number. -/
theorem real_of_entry {s : Shape} (x : FVec Ideal s .f32) (bc : S_.BroadcastsInDim s (![] : Fin 0 → Fin s.rank)) (i : s.Idx)
    (h : cmpf .olt (Host.absf x) (broadcastInDim s ![] bc (constant (F := Ideal) S_ .f32 0x7F800000#32)) i = 1#1) : ∃ r : ℝ, x i = r := by
  have h' : BitVec.ofBool (decide (max (x i) (-(x i)) < Ideal.ofBits .f32 0x7F800000#32)) = 1#1 := h
  rw [inf_word] at h'
  refine real_of_abs_lt_top (x i) ?_
  by_contra hn
  rw [decide_eq_false hn] at h'
  exact absurd h' (by decide)

/-- THE PRECONDITION DECODED: if the printed predicate is all ones on four arrays, each of them has only real entries. -/
theorem real_entries (x0 : FVec Ideal S32x2048x65 .f32) (x1 x2 : FVec Ideal S64x65 .f32) (x3 : FVec Ideal S65x65 .f32)
    (h : fn (F := Ideal) x0 x1 x2 x3 = fun _ => 1#1) :
    (∀ i, ∃ r : ℝ, x0 i = r) ∧ (∀ i, ∃ r : ℝ, x1 i = r) ∧ (∀ i, ∃ r : ℝ, x2 i = r) ∧ (∀ i, ∃ r : ℝ, x3 i = r) := by
  have e := congrFun h ValueIdx.ix0
  dsimp only [fn, fn_part1] at e
  simp only [andi] at e
  rw [IntOp.andi_eq_one, IntOp.andi_eq_one, IntOp.andi_eq_one] at e
  obtain ⟨⟨⟨e0, e1⟩, e2⟩, e3⟩ := e
  exact ⟨fun i => real_of_entry x0 _ i (Host.reduce_andi_all _ _ _ _ _ e0 i),
    fun i => real_of_entry x1 _ i (Host.reduce_andi_all _ _ _ _ _ e1 i),
    fun i => real_of_entry x2 _ i (Host.reduce_andi_all _ _ _ _ _ e2 i),
    fun i => real_of_entry x3 _ i (Host.reduce_andi_all _ _ _ _ _ e3 i)⟩

end Cert.Pre_finite_inputs.Decode

end
-- ==== Proof.lean ====
/- Linear (non-softmax) attention, `(Q Kᵀ) V` with `Q = X Wqᵀ`, `K = X Wkᵀ`, `V = X Wvᵀ`, over 32 sequences of 2048 positions
   and 65 features, hidden width 64: a kernel that never forms the 2048×2048 scores against a reference that does.

   The reference computes, per batch, the queries, keys and values, every query–key score, and the scores times the values.
   The kernel reassociates: the host folds the two projection weights into one 65×65 matrix `A = Wqᵀ Wk` once; then, four
   sequences per grid point, the body forms each sequence's Gram matrix `G = xᵀ x`, the 65×65 product `M = (A G) Wvᵀ`, and
   `x M`. Over the extended reals, where a change of float format is the identity and every product is an exact sum,
     * the reference's result at `(b, n, e)` is  Σ_m (Σ_h (Σ_d X(b,n,d) Wq(h,d)) (Σ_j X(b,m,j) Wk(h,j))) (Σ_k X(b,m,k) Wv(e,k))
       (Proof/ReferenceValue.lean, over the generated reading of the reference's five products);
     * the kernel's is  Σ_d X(b,n,d) · Σ_k (Σ_j (Σ_h Wq(h,d) Wk(h,j)) · Σ_m X(b,m,j) X(b,m,k)) · Wv(e,k)
       (Proof/ProductsRead.lean: each product as a sum; Proof/SequenceValue.lean: one sequence's stored value;
       Proof/BlockValue.lean: the four stores of a block as one function; Proof/KernelValue.lean: the blocks written back
       cover the result array);
     * the two are equal when every entry is a real number (Proof/AttnLaw.lean: associativity of the matrix product,
       carried to the extended reals through the coercion; Proof/AttnSpec.lean: at these shapes), which is what the
       precondition says (Proof/FiniteInputs.lean). The law distributes products over sums, so it does need the entries
       finite: this is where the precondition is used.
   The three frames are the generated frame certificates (the reference's is its generated run with the result dropped);
   the idealization rewrote nothing, so `preserves` has nothing to state. -/
import proofs.«102743_j16226386444902_2_alg».proof.Defs
import proofs.«102743_j16226386444902_2_alg».proof.Proof.Gen.Kernel
import proofs.«102743_j16226386444902_2_alg».proof.Proof.Gen.Kernel.Skeleton
import proofs.«102743_j16226386444902_2_alg».proof.Proof.Gen.Kernel.Launch
import proofs.«102743_j16226386444902_2_alg».proof.Proof.Gen.Kernel.Points
import proofs.«102743_j16226386444902_2_alg».proof.Proof.Gen.Kernel.Frame
import proofs.«102743_j16226386444902_2_alg».proof.Proof.Gen.KernelIdeal
import proofs.«102743_j16226386444902_2_alg».proof.Proof.Gen.KernelIdeal.Skeleton
import proofs.«102743_j16226386444902_2_alg».proof.Proof.Gen.KernelIdeal.Launch
import proofs.«102743_j16226386444902_2_alg».proof.Proof.Gen.KernelIdeal.Points
import proofs.«102743_j16226386444902_2_alg».proof.Proof.Gen.KernelIdeal.Frame
import proofs.«102743_j16226386444902_2_alg».proof.Proof.Gen.ReferenceIdeal
import proofs.«102743_j16226386444902_2_alg».proof.Proof.Gen.Pre_finite_inputs
import proofs.«102743_j16226386444902_2_alg».proof.Proof.Gen.KernelIdeal.Value
import proofs.«102743_j16226386444902_2_alg».proof.Proof.Gen.ReferenceIdeal.Run
import proofs.«102743_j16226386444902_2_alg».proof.Proof.Gen.ReferenceIdeal.Read
import proofs.«102743_j16226386444902_2_alg».proof.Proof.KernelValue
import proofs.«102743_j16226386444902_2_alg».proof.Proof.ReferenceValue
import proofs.«102743_j16226386444902_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the four arguments, all of whose entries are real numbers, the idealized kernel ends with its
    result at attention with keys and values first, the idealized reference with its result at attention with the scores
    first: one array. -/
theorem algebraic : Cert.algebraic_KernelIdeal_ReferenceIdeal := by
  intro m ρ m' ρ' hpre hagree
  refine ⟨fun c => Cert.KernelIdeal.Attn.result m c, Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Attn.result m c
  rw [Cert.ReferenceIdeal.Read.val_main_v4_eq, Cert.ReferenceIdeal.Attn.result_eq, (hagree c).1, (hagree c).2.1,
    (hagree c).2.2.1, (hagree c).2.2.2]
  obtain ⟨h0, h1, h2, h3⟩ := Cert.Pre_finite_inputs.Decode.real_entries _ _ _ _ (hpre c)
  exact (LinAttn.keysFirst_eq_scoresFirst h0 h1 h2 h3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
